-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 86
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .bf16⟩
  | .hbm, ⟨47, _⟩ => ⟨S128x256, .bf16⟩
  | .hbm, ⟨48, _⟩ => ⟨S50000x256, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x256, .f32⟩
  | .hbm, ⟨58, _⟩ => ⟨S850000x1, .f32⟩
  | .hbm, ⟨59, _⟩ => ⟨S850000x256, .f32⟩
  | .hbm, ⟨60, _⟩ => ⟨S850000x256, .f32⟩
  | .hbm, ⟨61, _⟩ => ⟨S_, .f32⟩
  | .hbm, ⟨62, _⟩ => ⟨S50000x256, .f32⟩
  | .hbm, ⟨63, _⟩ => ⟨S850000x1, .i32⟩
  | .hbm, ⟨64, _⟩ => ⟨S50000x256, .f32⟩
  | .hbm, ⟨65, _⟩ => ⟨S50000x256, .f32⟩
  | .hbm, ⟨66, _⟩ => ⟨S50000x256, .bf16⟩
  | .hbm, ⟨67, _⟩ => ⟨S256x128, .bf16⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S50000x128, .f32⟩
  | .local _ .vmem, ⟨0, _⟩ => ⟨S5000x128, .bf16⟩
  | .local _ .vmem, ⟨1, _⟩ => ⟨S5000x128, .bf16⟩
  | .local _ .vmem, ⟨2, _⟩ => ⟨S128x256, .bf16⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256, .f32⟩
  | .local _ .vmem, ⟨8, _⟩ => ⟨S5000x256, .f32⟩
  | .local _ .vmem, ⟨9, _⟩ => ⟨S5000x256, .f32⟩
  | .local _ .vmem, ⟨10, _⟩ => ⟨S5000x256, .bf16⟩
  | .local _ .vmem, ⟨11, _⟩ => ⟨S5000x256, .bf16⟩
  | .local _ .vmem, ⟨12, _⟩ => ⟨S256x128, .bf16⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S5000x256_S5000x256 : S5000x256.ShapeCasts S5000x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .bf16 = 32 ∨ (Rect.block (s := S50000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x256, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000, .i32⟩
  | .hbm, ⟨70, _⟩ => ⟨S850000, .i32⟩
  | .hbm, ⟨71, _⟩ => ⟨S850000, .i32⟩
  | .hbm, ⟨72, _⟩ => ⟨S_, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x128, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S850000x1, .f32⟩
  | .hbm, ⟨107, _⟩ => ⟨S_, .i32⟩
  | .hbm, ⟨108, _⟩ => ⟨S850000, .i32⟩
  | .hbm, ⟨109, _⟩ => ⟨S850000, .i1⟩
  | .hbm, ⟨110, _⟩ => ⟨S_, .i32⟩
  | .hbm, ⟨111, _⟩ => ⟨S850000, .i32⟩
  | .hbm, ⟨112, _⟩ => ⟨S850000, .i32⟩
  | .hbm, ⟨113, _⟩ => ⟨S850000, .i32⟩
  | .hbm, ⟨114, _⟩ => ⟨S850000x1, .i32⟩
  | .hbm, ⟨115, _⟩ => ⟨S850000x128, .f32⟩
  | .hbm, ⟨116, _⟩ => ⟨S850000x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  dot_S50000x128_S128x256_S50000x256_1_0_0_1_n_n_wf : DotDims.WF S50000x128 S128x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The kernel's run with its result named.

  The kernel program is four grid computations (two matrix products, two bias additions) among stretches of host
  operations. Its buffers' contents at each boundary between a stretch and a grid computation are a fold from the
  launch memory (`W0` … `W10` of the generated frame module). Every weakly fair execution terminates without a fault in a
  state whose unscoped buffers hold the last boundary's contents `W10`; so the result buffer ends at `W10` read at the
  result's reference, and the argument arrays end as launched. The other modules compute that value.
-/
import proofs.«141199_j6176162972388_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents and the six argument arrays as launched. -/
theorem run : θ_run defs (onTc (τ := τ) (main (F := F))) ⟨m, fun _ => 0, ρ⟩ (fun r => ∀ c : Dev nD,
      r.2.mem ((c.tc : Thread nD τ).loc main_v63) = W10 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v63 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Named

end
-- ==== Proof.Stages.lean ====
/-
  The two-layer graph convolution, stage by stage, as functions of arrays.

  Nodes 0 … 49999, 800000 edges given as a [2, 800000] table (row 0 the sources, row 1 the targets); every node also
  gets a self-loop, so there are 850000 edge slots. With deg(v) the number of slots whose target is v and
  dinv(v) = deg(v)^(-1/2) where deg(v) > 0 and 0 elsewhere, slot j carries the weight norm(j) = dinv(src j) · dinv(dst j).
  One layer maps a node-feature matrix X to  A(X · W) + b  where (A H)(v, ·) = Σ_{j : dst j = v} norm(j) · H(src j, ·);
  the first layer is followed by max(·, 0).  Each stage below is one of these steps, written with the host operations
  that compute it (slice, re-lay, concatenate, scatter-add, gather, broadcasts), for feature widths 256 and 128.
-/
import proofs.«141199_j6176162972388_1_alg».proof.Proof.Gen.ReferenceIdeal

noncomputable section

namespace Cert.Gcn

open Cert.ReferenceIdeal Cert.ReferenceIdeal.Gen Idealize.ShloMosaic

variable {F : FTy → Type} [FloatOps F]

/-- The slots' source nodes: row 0 of the edge table, then every node once. -/
def src (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The slots' target nodes: row 1 of the edge table, then every node once. -/
def dst (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative node index counted from the end: v + 50000 where v < 0. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- deg: the number of slots aimed at each node (ones scatter-added at the targets). -/
def deg (e : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant (F := F) S_ .f32 0x00000000#32)) (broadcastInDim S850000x1 ![0] bcast_S850000_S850000x1_0 (dst e)) (broadcastInDim S850000 ![] bcast_S_S850000 (constant (F := F) S_ .f32 0x3F800000#32))

/-- dinv: deg^(-1/2) where deg > 0, and 0 elsewhere. -/
def dinv (e : (⟨S2x800000, .i32⟩ : BufTy).Contents (Elt F)) : (⟨S50000, .f32⟩ : BufTy).Contents (Elt F) :=
  select (cmpf (F := F) .ogt (deg e) (broadcastInDim S50000 ![] bcast_S_S50000 (constant (F := F) S_ .f32 0x00000000#32))) (Host.rsqrt (deg e)) (broadcastInDim S50000 ![] bcast_S_S50000 (id (constant (F := F) S_ .f32 0x00000000#32)))

/-- Each slot's weight for a given per-node factor dv and slot arrays s, d: dv(source) · dv(target). -/
def normP (dv : (⟨S50000, .f32⟩ : BufTy).Contents (Elt F)) (s d : (⟨S850000, .i32⟩ : BufTy).Contents (Elt F)) : (⟨S850000, .f32⟩ : BufTy).Contents (Elt F) :=
  mulf (Host.gather gather_S50000_S850000x1_S850000_n_0_n_n_0_1_1 dv (broadcastInDim S850000x1 ![0] bcast_S850000_S850000x1_0 (wrap s))) (Host.gather gather_S50000_S850000x1_S850000_n_0_n_n_0_1_1 dv (broadcastInDim S850000x1 ![0] bcast_S850000_S850000x1_0 (wrap d)))

/-- norm: each slot's weight dinv(source) · dinv(target). -/
def norm (e : (⟨S2x800000, .i32⟩ : BufTy).Contents (Elt F)) : (⟨S850000, .f32⟩ : BufTy).Contents (Elt F) :=
  normP (dinv e) (src e) (dst e)

/-- Aggregation at width 256 over given slot arrays (sources s, targets d, weights n): the source rows of h gathered,
    weighted slot by slot, and scatter-added at the targets. -/
def aggP256 (h : (⟨S50000x256, .f32⟩ : BufTy).Contents (Elt F)) (s d : (⟨S850000, .i32⟩ : BufTy).Contents (Elt F))
    (n : (⟨S850000, .f32⟩ : BufTy).Contents (Elt F)) : (⟨S50000x256, .f32⟩ : BufTy).Contents (Elt F) :=
  Host.scatterAdd scatter_S50000x256_S850000x1_S850000x256_1_0_0_1 (broadcastInDim S50000x256 ![] bcast_S_S50000x256 (constant (F := F) S_ .f32 0x00000000#32)) (broadcastInDim S850000x1 ![0] bcast_S850000_S850000x1_0 d) (mulf (Host.gather gather_S50000x256_S850000x1_S850000x256_1_0_n_n_0_1_1256 h (broadcastInDim S850000x1 ![0] bcast_S850000_S850000x1_0 (wrap s))) (broadcastInDim S850000x256 ![0, 1] bcast_S850000x1_S850000x256_0_1 (broadcastInDim S850000x1 ![0] bcast_S850000_S850000x1_0 n)))

/-- The same at width 128. -/
def aggP128 (h : (⟨S50000x128, .f32⟩ : BufTy).Contents (Elt F)) (s d : (⟨S850000, .i32⟩ : BufTy).Contents (Elt F))
    (n : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant (F := F) S_ .f32 0x00000000#32)) (broadcastInDim S850000x1 ![0] bcast_S850000_S850000x1_0 d) (mulf (Host.gather gather_S50000x128_S850000x1_S850000x128_1_0_n_n_0_1_1128 h (broadcastInDim S850000x1 ![0] bcast_S850000_S850000x1_0 (wrap s))) (broadcastInDim S850000x128 ![0, 1] bcast_S850000x1_S850000x128_0_1 (broadcastInDim S850000x1 ![0] bcast_S850000_S850000x1_0 n)))

/-- Aggregation over the graph's own slots at width 256. -/
def agg256 (h : (⟨S50000x256, .f32⟩ : BufTy).Contents (Elt F)) (e : (⟨S2x800000, .i32⟩ : BufTy).Contents (Elt F)) : (⟨S50000x256, .f32⟩ : BufTy).Contents (Elt F) :=
  aggP256 h (src e) (dst e) (norm e)

/-- Aggregation over the graph's own slots at width 128. -/
def agg128 (h : (⟨S50000x128, .f32⟩ : BufTy).Contents (Elt F)) (e : (⟨S2x800000, .i32⟩ : BufTy).Contents (Elt F)) : (⟨S50000x128, .f32⟩ : BufTy).Contents (Elt F) :=
  aggP128 h (src e) (dst e) (norm e)

/-- The first layer's matrix product X · W1. -/
def dot256 (x : (⟨S50000x128, .f32⟩ : BufTy).Contents (Elt F)) (w : (⟨S128x256, .f32⟩ : BufTy).Contents (Elt F)) : (⟨S50000x256, .f32⟩ : BufTy).Contents (Elt F) :=
  Host.dotGeneral dot_S50000x128_S128x256_S50000x256_1_0_0_1_n_n none x w

/-- The second layer's matrix product H · W2. -/
def dot128 (x : (⟨S50000x256, .f32⟩ : BufTy).Contents (Elt F)) (w : (⟨S256x128, .f32⟩ : BufTy).Contents (Elt F)) : (⟨S50000x128, .f32⟩ : BufTy).Contents (Elt F) :=
  Host.dotGeneral dot_S50000x256_S256x128_S50000x128_1_0_0_1_n_n none x w

/-- The first layer's bias added to every row, then max(·, 0). -/
def act256 (a : (⟨S50000x256, .f32⟩ : BufTy).Contents (Elt F)) (b : (⟨S256, .f32⟩ : BufTy).Contents (Elt F)) : (⟨S50000x256, .f32⟩ : BufTy).Contents (Elt F) :=
  maximumf (addf a (broadcastInDim S50000x256 ![0, 1] bcast_S1x256_S50000x256_0_1 (broadcastInDim S1x256 ![1] bcast_S256_S1x256_1 b))) (broadcastInDim S50000x256 ![] bcast_S_S50000x256 (constant (F := F) S_ .f32 0x00000000#32))

/-- The second layer's bias added to every row. -/
def act128 (a : (⟨S50000x128, .f32⟩ : BufTy).Contents (Elt F)) (b : (⟨S128, .f32⟩ : BufTy).Contents (Elt F)) : (⟨S50000x128, .f32⟩ : BufTy).Contents (Elt F) :=
  addf a (broadcastInDim S50000x128 ![0, 1] bcast_S1x128_S50000x128_0_1 (broadcastInDim S1x128 ![1] bcast_S128_S1x128_1 b))

/-- The whole network: layer 2 of max(layer 1, 0). -/
def net (x : (⟨S50000x128, .f32⟩ : BufTy).Contents (Elt F)) (e : (⟨S2x800000, .i32⟩ : BufTy).Contents (Elt F))
    (w1 : (⟨S128x256, .f32⟩ : BufTy).Contents (Elt F)) (b1 : (⟨S256, .f32⟩ : BufTy).Contents (Elt F))
    (w2 : (⟨S256x128, .f32⟩ : BufTy).Contents (Elt F)) (b2 : (⟨S128, .f32⟩ : BufTy).Contents (Elt F)) :
    (⟨S50000x128, .f32⟩ : BufTy).Contents (Elt F) :=
  act128 (agg128 (dot128 (act256 (agg256 (dot256 x w1) e) b1) w2) e) b2

end Cert.Gcn

end
-- ==== Proof.Graph.lean ====
/-
  The host stretch before the first product, read at the buffers that matter.

  Before any grid computation the kernel program builds, from the edge table alone, the slot arrays: the sources and
  the targets (the table's two rows, each followed by every node once), the degrees, their inverse square roots where
  positive, and each slot's weight, the product of the two at its ends. It also changes the float format of the node
  features and of the first weight matrix, which is the identity over the extended reals. From ANY contents Wv of the
  buffers the three lists of operations, one after the other, leave exactly the specification's stages of the edge
  table found in its buffer, and do not write an argument array.
-/
import proofs.«141199_j6176162972388_1_alg».proof.Proof.Gen.KernelIdeal.Frame
import proofs.«141199_j6176162972388_1_alg».proof.Proof.Stages
import Idealize.ShloMosaic.Lib.StableHlo.Run
import Idealize.ShloMosaic.PureOps.Ideal

set_option maxRecDepth 16384
set_option maxHeartbeats 16000000

noncomputable section

namespace Cert.KernelIdeal.Stretch

open Cert.KernelIdeal Cert.KernelIdeal.Gen
open Idealize.ShloMosaic Idealize.ShloMosaic.TcCoe Idealize.SL.Sem Idealize.ShloMosaic.StableHlo

variable (Wv : Valuation τ sig (Elt Ideal))

/-- The slots' sources. -/
theorem pre_src : after (hostOps0_2 (F := Ideal)) (after (hostOps0_1 (F := Ideal)) (after (hostOps0 (F := Ideal)) Wv)) (Proc.devRef .tc main_v5) = Cert.Gcn.src (F := Ideal) (Wv (Proc.devRef .tc main_arg1)) := by
  after_results_simp
  rfl

/-- The slots' targets. -/
theorem pre_dst : after (hostOps0_2 (F := Ideal)) (after (hostOps0_1 (F := Ideal)) (after (hostOps0 (F := Ideal)) Wv)) (Proc.devRef .tc main_v6) = Cert.Gcn.dst (F := Ideal) (Wv (Proc.devRef .tc main_arg1)) := by
  after_results_simp
  rfl

/-- The first list of operations leaves the comparison of the degrees with zero, … -/
theorem first_pos : after (hostOps0 (F := Ideal)) Wv (Proc.devRef .tc main_v12)
    = cmpf (F := Ideal) .ogt (Cert.Gcn.deg (F := Ideal) (Wv (Proc.devRef .tc main_arg1))) (broadcastInDim S50000 ![] bcast_S_S50000 (constant (F := Ideal) S_ .f32 0x00000000#32)) := by
  after_results_simp
  rfl

/-- … the inverse square roots of the degrees, … -/
theorem first_rsqrt : after (hostOps0 (F := Ideal)) Wv (Proc.devRef .tc main_v13) = Host.rsqrt (F := Ideal) (s := S50000) (φ := .f32) (Cert.Gcn.deg (F := Ideal) (Wv (Proc.devRef .tc main_arg1))) := by
  after_results_simp
  rfl

/-- … the zero that stands where a degree is not positive, … -/
theorem first_zero : after (hostOps0 (F := Ideal)) Wv (Proc.devRef .tc main_cst_2) = constant (F := Ideal) S_ .f32 0x00000000#32 := by
  after_results_simp

/-- … and the slots' sources and targets. -/
theorem first_src : after (hostOps0 (F := Ideal)) Wv (Proc.devRef .tc main_v5) = Cert.Gcn.src (F := Ideal) (Wv (Proc.devRef .tc main_arg1)) := by
  after_results_simp
  rfl
theorem first_dst : after (hostOps0 (F := Ideal)) Wv (Proc.devRef .tc main_v6) = Cert.Gcn.dst (F := Ideal) (Wv (Proc.devRef .tc main_arg1)) := by
  after_results_simp
  rfl

/-- The second list selects between the inverse square root and zero, … -/
theorem second_dinv : after (hostOps0_1 (F := Ideal)) Wv (Proc.devRef .tc main_v14)
    = select (Wv (Proc.devRef .tc main_v12)) (Wv (Proc.devRef .tc main_v13)) (broadcastInDim S50000 ![] bcast_S_S50000 (id (Wv (Proc.devRef .tc main_cst_2)))) := by
  after_results_simp
  rfl

/-- … and writes neither slot array. -/
theorem second_keep_src : after (hostOps0_1 (F := Ideal)) Wv (Proc.devRef .tc main_v5) = Wv (Proc.devRef .tc main_v5) := by
  after_results_simp
theorem second_keep_dst : after (hostOps0_1 (F := Ideal)) Wv (Proc.devRef .tc main_v6) = Wv (Proc.devRef .tc main_v6) := by
  after_results_simp

/-- The third list multiplies the per-node factors at each slot's two ends. -/
theorem third_norm : after (hostOps0_2 (F := Ideal)) Wv (Proc.devRef .tc main_v29)
    = Cert.Gcn.normP (F := Ideal) (Wv (Proc.devRef .tc main_v14)) (Wv (Proc.devRef .tc main_v5)) (Wv (Proc.devRef .tc main_v6)) := by
  after_results_simp
  rfl

/-- The slots' weights. -/
theorem pre_norm : after (hostOps0_2 (F := Ideal)) (after (hostOps0_1 (F := Ideal)) (after (hostOps0 (F := Ideal)) Wv)) (Proc.devRef .tc main_v29) = Cert.Gcn.norm (F := Ideal) (Wv (Proc.devRef .tc main_arg1)) := by
  rw [third_norm, second_dinv, second_keep_src, second_keep_dst, first_pos, first_rsqrt, first_zero, first_src, first_dst]
  rfl

/-- The node features in the product's input format are the node features. -/
theorem pre_x : after (hostOps0_2 (F := Ideal)) (after (hostOps0_1 (F := Ideal)) (after (hostOps0 (F := Ideal)) Wv)) (Proc.devRef .tc main_v30) = Wv (Proc.devRef .tc main_arg0) := by
  after_results_simp
  rfl

/-- The first weight matrix in the product's input format is the first weight matrix. -/
theorem pre_w1 : after (hostOps0_2 (F := Ideal)) (after (hostOps0_1 (F := Ideal)) (after (hostOps0 (F := Ideal)) Wv)) (Proc.devRef .tc main_v31) = Wv (Proc.devRef .tc main_arg2) := by
  after_results_simp
  rfl

/-- The stretch does not write this argument. -/
theorem pre_keep_main_arg3 : after (hostOps0_2 (F := Ideal)) (after (hostOps0_1 (F := Ideal)) (after (hostOps0 (F := Ideal)) Wv)) (Proc.devRef .tc main_arg3) = Wv (Proc.devRef .tc main_arg3) := by
  after_results_simp

/-- The stretch does not write this argument. -/
theorem pre_keep_main_arg4 : after (hostOps0_2 (F := Ideal)) (after (hostOps0_1 (F := Ideal)) (after (hostOps0 (F := Ideal)) Wv)) (Proc.devRef .tc main_arg4) = Wv (Proc.devRef .tc main_arg4) := by
  after_results_simp

/-- The stretch does not write this argument. -/
theorem pre_keep_main_arg5 : after (hostOps0_2 (F := Ideal)) (after (hostOps0_1 (F := Ideal)) (after (hostOps0 (F := Ideal)) Wv)) (Proc.devRef .tc main_arg5) = Wv (Proc.devRef .tc main_arg5) := by
  after_results_simp

end Cert.KernelIdeal.Stretch

end
-- ==== Proof.Stretches.lean ====
/-
  The host stretches of the kernel program, read at the buffers that matter.

  Between the grid computations the kernel program runs plain host operations. From ANY contents Wv of the buffers:
  the stretch after the first product leaves, in the buffer the first bias step reads, the width-256 aggregation of the
  product's buffer over the slot arrays (sources, targets, weights) found in their buffers; the stretch after the
  first bias step only changes the float format of two arrays, which is the identity over the extended reals; the
  stretch after the second product leaves the width-128 aggregation. None of them writes the slot arrays or an
  argument array, so those are found afterwards as they were before.
-/
import proofs.«141199_j6176162972388_1_alg».proof.Proof.Gen.KernelIdeal.Frame
import proofs.«141199_j6176162972388_1_alg».proof.Proof.Stages
import Idealize.ShloMosaic.Lib.StableHlo.Run
import Idealize.ShloMosaic.PureOps.Ideal

set_option maxRecDepth 16384
set_option maxHeartbeats 16000000

noncomputable section

namespace Cert.KernelIdeal.Stretch

open Cert.KernelIdeal Cert.KernelIdeal.Gen
open Idealize.ShloMosaic Idealize.ShloMosaic.TcCoe Idealize.SL.Sem Idealize.ShloMosaic.StableHlo

variable (Wv : Valuation τ sig (Elt Ideal))

/-- After the first product: the width-256 aggregation of the product over the slot arrays. -/
theorem agg_first : after (hostOps1 (F := Ideal)) Wv (Proc.devRef .tc main_v45)
    = Cert.Gcn.aggP256 (F := Ideal) (Wv (Proc.devRef .tc main_v32)) (Wv (Proc.devRef .tc main_v5)) (Wv (Proc.devRef .tc main_v6)) (Wv (Proc.devRef .tc main_v29)) := by
  after_results_simp
  rfl

/-- After the second product: the width-128 aggregation of the product over the slot arrays. -/
theorem agg_second : after (hostOps3 (F := Ideal)) Wv (Proc.devRef .tc main_v62)
    = Cert.Gcn.aggP128 (F := Ideal) (Wv (Proc.devRef .tc main_v49)) (Wv (Proc.devRef .tc main_v5)) (Wv (Proc.devRef .tc main_v6)) (Wv (Proc.devRef .tc main_v29)) := by
  after_results_simp
  rfl

/-- The change of float format of the first layer's output is the identity. -/
theorem cast_h : after (hostOps2 (F := Ideal)) Wv (Proc.devRef .tc main_v47) = Wv (Proc.devRef .tc main_v46) := by
  after_results_simp
  rfl

/-- The change of float format of the second weight matrix is the identity. -/
theorem cast_w2 : after (hostOps2 (F := Ideal)) Wv (Proc.devRef .tc main_v48) = Wv (Proc.devRef .tc main_arg4) := by
  after_results_simp
  rfl

/-- The stretch does not write this buffer. -/
theorem keep_hostOps1_main_v5 : after (hostOps1 (F := Ideal)) Wv (Proc.devRef .tc main_v5) = Wv (Proc.devRef .tc main_v5) := by
  after_results_simp

/-- The stretch does not write this buffer. -/
theorem keep_hostOps1_main_v6 : after (hostOps1 (F := Ideal)) Wv (Proc.devRef .tc main_v6) = Wv (Proc.devRef .tc main_v6) := by
  after_results_simp

/-- The stretch does not write this buffer. -/
theorem keep_hostOps1_main_v29 : after (hostOps1 (F := Ideal)) Wv (Proc.devRef .tc main_v29) = Wv (Proc.devRef .tc main_v29) := by
  after_results_simp

/-- The stretch does not write this buffer. -/
theorem keep_hostOps1_main_arg3 : after (hostOps1 (F := Ideal)) Wv (Proc.devRef .tc main_arg3) = Wv (Proc.devRef .tc main_arg3) := by
  after_results_simp

/-- The stretch does not write this buffer. -/
theorem keep_hostOps1_main_arg4 : after (hostOps1 (F := Ideal)) Wv (Proc.devRef .tc main_arg4) = Wv (Proc.devRef .tc main_arg4) := by
  after_results_simp

/-- The stretch does not write this buffer. -/
theorem keep_hostOps1_main_arg5 : after (hostOps1 (F := Ideal)) Wv (Proc.devRef .tc main_arg5) = Wv (Proc.devRef .tc main_arg5) := by
  after_results_simp

/-- The stretch does not write this buffer. -/
theorem keep_hostOps2_main_v5 : after (hostOps2 (F := Ideal)) Wv (Proc.devRef .tc main_v5) = Wv (Proc.devRef .tc main_v5) := by
  after_results_simp

/-- The stretch does not write this buffer. -/
theorem keep_hostOps2_main_v6 : after (hostOps2 (F := Ideal)) Wv (Proc.devRef .tc main_v6) = Wv (Proc.devRef .tc main_v6) := by
  after_results_simp

/-- The stretch does not write this buffer. -/
theorem keep_hostOps2_main_v29 : after (hostOps2 (F := Ideal)) Wv (Proc.devRef .tc main_v29) = Wv (Proc.devRef .tc main_v29) := by
  after_results_simp

/-- The stretch does not write this buffer. -/
theorem keep_hostOps2_main_arg5 : after (hostOps2 (F := Ideal)) Wv (Proc.devRef .tc main_arg5) = Wv (Proc.devRef .tc main_arg5) := by
  after_results_simp

/-- The stretch does not write this buffer. -/
theorem keep_hostOps3_main_arg5 : after (hostOps3 (F := Ideal)) Wv (Proc.devRef .tc main_arg5) = Wv (Proc.devRef .tc main_arg5) := by
  after_results_simp

end Cert.KernelIdeal.Stretch

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«141199_j6176162972388_1_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.Matmul1.lean ====
/-
  The first matrix product, block by block.

  The grid has ten points; point t multiplies rows 5000·t … 5000·t + 4999 of the left matrix [50000, 128] by the whole
  right matrix [128, 256] into a zero block, and writes the product back as rows 5000·t … of the result [50000, 256].
  Entry (r, q) of that block is Σ_k left(5000·t + r, k) · right(k, q), which is entry (5000·t + r, q) of the product of
  the whole matrices. The ten row blocks tile the result, so the result array ends as the whole product.
-/
import proofs.«141199_j6176162972388_1_alg».proof.Proof.Gen.KernelIdeal.Frame
import proofs.«141199_j6176162972388_1_alg».proof.Proof.Stages
import proofs.«141199_j6176162972388_1_alg».proof.Proof.LibRowReads
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Row r of block t is row 5000·t + r of the array. -/
def rowOf (tv : Nat) (ht : tv < 10) (r : Fin 5000) : Fin 50000 := ⟨tv * 5000 + r.val, by have := r.isLt; omega⟩

/-- The body's product at (r, q): row r of the left block against column q of the right one. -/
theorem pay0_at (x0 : FVec Ideal S5000x128 .bf16) (x1 : FVec Ideal S128x256 .bf16) (r : Fin 5000) (q : Fin 256) :
    k0_pay1 (F := Ideal) x0 x1 (ix2 r q) = (∑ p : Fin 128, x0 (ix2 r p) * x1 (ix2 p q) : EReal) := by
  unfold k0_pay1
  rw [shapeCast_self, shapeCast_self]
  exact Cert.Lib.matmul_zero_at dot_S5000x128_S128x256_S5000x256_1_0_0_1_n_n rfl rfl rfl rfl rfl rfl none x0 x1 r q

/-- A block of the product of blocks is the block of the product: for a left block holding rows 5000·tv … of A and a
    right block holding all of B, the body's entry at j is the whole product's entry at the array index i of j. -/
theorem block0_at (A : FVec Ideal ⟨2, ![50000, 128]⟩ .f32) (B : FVec Ideal ⟨2, ![128, 256]⟩ .f32)
    (x0 : FVec Ideal S5000x128 .bf16) (x1 : FVec Ideal S128x256 .bf16) (tv : Nat) (ht : tv < 10)
    (h0 : ∀ (r : Fin 5000) (p : Fin 128), x0 (ix2 r p) = A (ix2 (rowOf tv ht r) p))
    (h1 : ∀ (p : Fin 128) (q : Fin 256), x1 (ix2 p q) = B (ix2 p q))
    (j : (⟨2, ![5000, 256]⟩ : Shape).Idx) (i : (⟨2, ![50000, 256]⟩ : Shape).Idx)
    (hi0 : (i 0).val = tv * 5000 + (j 0).val) (hi1 : (i 1).val = (j 1).val) :
    k0_pay1 (F := Ideal) x0 x1 j = Cert.Gcn.dot256 (F := Ideal) A B i := by
  obtain ⟨r, q, rfl⟩ : ∃ (r : Fin 5000) (q : Fin 256), j = ix2 r q := ⟨j 0, j 1, eq_ix2 j⟩
  obtain ⟨R, Q, rfl⟩ : ∃ (R : Fin 50000) (Q : Fin 256), i = ix2 R Q := ⟨i 0, i 1, eq_ix2 i⟩
  have hQ : Q = q := Fin.ext hi1
  have hR : R = rowOf tv ht r := Fin.ext hi0
  subst hQ hR
  rw [pay0_at]
  unfold Cert.Gcn.dot256
  rw [Cert.Lib.dotGeneral_at Cert.ReferenceIdeal.dot_S50000x128_S128x256_S50000x256_1_0_0_1_n_n rfl rfl rfl rfl rfl rfl]
  exact Finset.sum_congr rfl fun p _ => by rw [h0, h1]

/-- The printed index maps over the ten grid points: the left and result blocks move down with the point, the right
    one stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt0 (t : Fin cfg0.N) : t.val < 10 := lt_of_lt_of_eq t.isLt N_0

/-- The left window's block at point t holds rows 5000·t … of its array. -/
theorem read0_0 (c : Dev nD) (t : Fin cfg0.N) (r : Fin 5000) (p : Fin 128) :
    iblk0 V c 0 t (ix2 r p) = V c main_v30 (ix2 (rowOf t.val (lt0 t) r) p) := by
  obtain ⟨e0, e1, e2, e3, e4, e5⟩ := idx0 t
  show V c main_v30 (((cfg0.win 0).blk t).view.emb (ix2 r p)) = _
  refine congrArg (V c main_v30) ?_
  funext a; apply Fin.ext
  match a with
  | ⟨0, _⟩ => show win0_0.index t (0 : Fin 2) * 5000 + 1 * r.val = t.val * 5000 + r.val; omega
  | ⟨1, _⟩ => show win0_0.index t (1 : Fin 2) * 128 + 1 * p.val = p.val; omega

/-- The right window's block at every point is its whole array. -/
theorem read0_1 (c : Dev nD) (t : Fin cfg0.N) (p : Fin 128) (q : Fin 256) :
    iblk0 V c 1 t (ix2 p q) = V c main_v31 (ix2 p q) := by
  obtain ⟨e0, e1, e2, e3, e4, e5⟩ := idx0 t
  show V c main_v31 (((cfg0.win 1).blk t).view.emb (ix2 p q)) = _
  refine congrArg (V c main_v31) ?_
  funext a; apply Fin.ext
  match a with
  | ⟨0, _⟩ => show win0_1.index t (0 : Fin 2) * 128 + 1 * p.val = p.val; omega
  | ⟨1, _⟩ => show win0_1.index t (1 : Fin 2) * 256 + 1 * q.val = q.val; omega

/-- What point t writes back is block t of the product of the whole arrays. -/
theorem flushed0 (c : Dev nD) (t : Fin cfg0.N) :
    (dat0 V c).flushed 2 t = ((cfg0.win 2).blk t).view.read (Elt Ideal)
      (Cert.Gcn.dot256 (F := Ideal) (V c main_v30) (V c main_v31)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x256) hz2]
  obtain ⟨e0, e1, e2, e3, e4, e5⟩ := idx0 t
  funext j
  refine block0_at (V c main_v30) (V c main_v31) (iblk0 V c 0 t) (iblk0 V c 1 t) t.val (lt0 t)
    (read0_0 V c t) (read0_1 V c t) j (((cfg0.win 2).blk t).view.emb j) ?_ ?_
  · show win0_2.index t (0 : Fin 2) * 5000 + 1 * (j 0).val = t.val * 5000 + (j 0).val; omega
  · show win0_2.index t (1 : Fin 2) * 256 + 1 * (j 1).val = (j 1).val; omega

/-- An index is in point t's block iff each coordinate is in the block's range. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v32).slice (win0_2.rect t)).set ↔ _
  rw [View.set_slice_whole, Rect.mem_set_unit]
  exact Iff.rfl

/-- Every row lies in the block of the point (row / 5000). -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 5000, by rw [show cfg0.N = 10 from N_0]; omega⟩
  obtain ⟨e0, e1, e2, e3, e4, e5⟩ := idx0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The result array after the ten points is the product of the two arrays as the grid finds them. -/
theorem final0 (c : Dev nD) :
    (dat0 V c).arrAt 2 cfg0.N = Cert.Gcn.dot256 (F := Ideal) (V c main_v30) (V c main_v31) :=
  (dat0 V c).arrAt_eq_of_cover 2 _ (fun t _ => flushed0 V c t) cover0

end Cert.KernelIdeal.Blocks

end
-- ==== Proof.Matmul2.lean ====
/-
  The second matrix product, block by block.

  As for the first one: point t multiplies rows 5000·t … 5000·t + 4999 of the left matrix [50000, 256] by the whole right
  matrix [256, 128] into a zero block and writes it back as rows 5000·t … of the result [50000, 128]; entry (r, q) of the
  block is entry (5000·t + r, q) of the product of the whole matrices, and the ten row blocks tile the result.
-/
import proofs.«141199_j6176162972388_1_alg».proof.Proof.Gen.KernelIdeal.Frame
import proofs.«141199_j6176162972388_1_alg».proof.Proof.Stages
import proofs.«141199_j6176162972388_1_alg».proof.Proof.LibRowReads
import proofs.«141199_j6176162972388_1_alg».proof.Proof.Matmul1
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's product at (r, q): row r of the left block against column q of the right one. -/
theorem pay2_at (x0 : FVec Ideal S5000x256 .bf16) (x1 : FVec Ideal S256x128 .bf16) (r : Fin 5000) (q : Fin 128) :
    k2_pay1 (F := Ideal) x0 x1 (ix2 r q) = (∑ p : Fin 256, x0 (ix2 r p) * x1 (ix2 p q) : EReal) := by
  unfold k2_pay1
  rw [shapeCast_self, shapeCast_self]
  exact Cert.Lib.matmul_zero_at dot_S5000x256_S256x128_S5000x128_1_0_0_1_n_n rfl rfl rfl rfl rfl rfl none x0 x1 r q

/-- A block of the product of blocks is the block of the product: for a left block holding rows 5000·tv … of A and a
    right block holding all of B, the body's entry at j is the whole product's entry at the array index i of j. -/
theorem block2_at (A : FVec Ideal ⟨2, ![50000, 256]⟩ .f32) (B : FVec Ideal ⟨2, ![256, 128]⟩ .f32)
    (x0 : FVec Ideal S5000x256 .bf16) (x1 : FVec Ideal S256x128 .bf16) (tv : Nat) (ht : tv < 10)
    (h0 : ∀ (r : Fin 5000) (p : Fin 256), x0 (ix2 r p) = A (ix2 (rowOf tv ht r) p))
    (h1 : ∀ (p : Fin 256) (q : Fin 128), x1 (ix2 p q) = B (ix2 p q))
    (j : (⟨2, ![5000, 128]⟩ : Shape).Idx) (i : (⟨2, ![50000, 128]⟩ : Shape).Idx)
    (hi0 : (i 0).val = tv * 5000 + (j 0).val) (hi1 : (i 1).val = (j 1).val) :
    k2_pay1 (F := Ideal) x0 x1 j = Cert.Gcn.dot128 (F := Ideal) A B i := by
  obtain ⟨r, q, rfl⟩ : ∃ (r : Fin 5000) (q : Fin 128), j = ix2 r q := ⟨j 0, j 1, eq_ix2 j⟩
  obtain ⟨R, Q, rfl⟩ : ∃ (R : Fin 50000) (Q : Fin 128), i = ix2 R Q := ⟨i 0, i 1, eq_ix2 i⟩
  have hQ : Q = q := Fin.ext hi1
  have hR : R = rowOf tv ht r := Fin.ext hi0
  subst hQ hR
  rw [pay2_at]
  unfold Cert.Gcn.dot128
  rw [Cert.Lib.dotGeneral_at Cert.ReferenceIdeal.dot_S50000x256_S256x128_S50000x128_1_0_0_1_n_n rfl rfl rfl rfl rfl rfl]
  exact Finset.sum_congr rfl fun p _ => by rw [h0, h1]

/-- The printed index maps over the ten grid points: the left and result blocks move down with the point, the right
    one stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt2 (t : Fin cfg2.N) : t.val < 10 := lt_of_lt_of_eq t.isLt N_2

/-- The left window's block at point t holds rows 5000·t … of its array. -/
theorem read2_0 (c : Dev nD) (t : Fin cfg2.N) (r : Fin 5000) (p : Fin 256) :
    iblk2 V c 0 t (ix2 r p) = V c main_v47 (ix2 (rowOf t.val (lt2 t) r) p) := by
  obtain ⟨e0, e1, e2, e3, e4, e5⟩ := idx2 t
  show V c main_v47 (((cfg2.win 0).blk t).view.emb (ix2 r p)) = _
  refine congrArg (V c main_v47) ?_
  funext a; apply Fin.ext
  match a with
  | ⟨0, _⟩ => show win2_0.index t (0 : Fin 2) * 5000 + 1 * r.val = t.val * 5000 + r.val; omega
  | ⟨1, _⟩ => show win2_0.index t (1 : Fin 2) * 256 + 1 * p.val = p.val; omega

/-- The right window's block at every point is its whole array. -/
theorem read2_1 (c : Dev nD) (t : Fin cfg2.N) (p : Fin 256) (q : Fin 128) :
    iblk2 V c 1 t (ix2 p q) = V c main_v48 (ix2 p q) := by
  obtain ⟨e0, e1, e2, e3, e4, e5⟩ := idx2 t
  show V c main_v48 (((cfg2.win 1).blk t).view.emb (ix2 p q)) = _
  refine congrArg (V c main_v48) ?_
  funext a; apply Fin.ext
  match a with
  | ⟨0, _⟩ => show win2_1.index t (0 : Fin 2) * 256 + 1 * p.val = p.val; omega
  | ⟨1, _⟩ => show win2_1.index t (1 : Fin 2) * 128 + 1 * q.val = q.val; omega

/-- What point t writes back is block t of the product of the whole arrays. -/
theorem flushed2 (c : Dev nD) (t : Fin cfg2.N) :
    (dat2 V c).flushed 2 t = ((cfg2.win 2).blk t).view.read (Elt Ideal)
      (Cert.Gcn.dot128 (F := Ideal) (V c main_v47) (V c main_v48)) := by
  show (cfg2.win 2).cut (grid2.coords t) ((dat2 V c).after 2 t) = _
  rw [after2_2]
  unfold out2_2
  rw [View.canon_unit_zero hz2]
  simp only [View.ld_unit_zero (S := S5000x256) hz2, View.ld_unit_zero (S := S256x128) hz2]
  obtain ⟨e0, e1, e2, e3, e4, e5⟩ := idx2 t
  funext j
  refine block2_at (V c main_v47) (V c main_v48) (iblk2 V c 0 t) (iblk2 V c 1 t) t.val (lt2 t)
    (read2_0 V c t) (read2_1 V c t) j (((cfg2.win 2).blk t).view.emb j) ?_ ?_
  · show win2_2.index t (0 : Fin 2) * 5000 + 1 * (j 0).val = t.val * 5000 + (j 0).val; omega
  · show win2_2.index t (1 : Fin 2) * 128 + 1 * (j 1).val = (j 1).val; omega

/-- An index is in point t's block iff each coordinate is in the block's range. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v49).slice (win2_2.rect t)).set ↔ _
  rw [View.set_slice_whole, Rect.mem_set_unit]
  exact Iff.rfl

/-- Every row lies in the block of the point (row / 5000). -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, by rw [show cfg2.N = 10 from N_2]; omega⟩
  obtain ⟨e0, e1, e2, e3, e4, e5⟩ := idx2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the ten points is the product of the two arrays as the grid finds them. -/
theorem final2 (c : Dev nD) :
    (dat2 V c).arrAt 2 cfg2.N = Cert.Gcn.dot128 (F := Ideal) (V c main_v47) (V c main_v48) :=
  (dat2 V c).arrAt_eq_of_cover 2 _ (fun t _ => flushed2 V c t) cover2

end Cert.KernelIdeal.Blocks

end
-- ==== Proof.Bias1.lean ====
/-
  The first layer's bias and max(·, 0), block by block.

  Point t takes rows 5000·t … 5000·t + 4999 of the aggregated matrix [50000, 256] and the whole bias vector [256], adds the
  bias to every row, takes the maximum with 0, and writes the block back at the same rows of the result. Entry (r, q) of
  the block is max(a(5000·t + r, q) + b(q), 0): the same entry of the whole-array formula; the ten row blocks tile the
  result.
-/
import proofs.«141199_j6176162972388_1_alg».proof.Proof.Gen.KernelIdeal.Frame
import proofs.«141199_j6176162972388_1_alg».proof.Proof.Stages
import proofs.«141199_j6176162972388_1_alg».proof.Proof.LibRowReads
import proofs.«141199_j6176162972388_1_alg».proof.Proof.Matmul1
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1_1 : (![0] : Fin 1 → Nat) = fun _ => 0 := funext fun a => by fin_cases a; rfl

/-- The body's value at (r, q). -/
theorem pay1_at (x0 : FVec Ideal S5000x256 .f32) (x1 : FVec Ideal S256 .f32) (r : Fin 5000) (q : Fin 256) :
    k1_pay1 (F := Ideal) x0 x1 (ix2 r q) = (max (x0 (ix2 r q) + x1 (ix1 q)) (Ideal.ofBits .f32 0x00000000#32) : EReal) := by
  unfold k1_pay1
  rw [shapeCast_self, maximumf_apply, addf_apply, broadcast_apply, Cert.Lib.bcast_vec_apply]
  rfl

/-- The whole-array formula at (R, q), in the host operations' spelling. -/
theorem act256_at (A : FVec Ideal ⟨2, ![50000, 256]⟩ .f32) (b : FVec Ideal ⟨1, ![256]⟩ .f32) (R : Fin 50000) (q : Fin 256) :
    Cert.Gcn.act256 (F := Ideal) A b (ix2 R q) = (max (A (ix2 R q) + b (ix1 q)) (Ideal.ofBits .f32 0x00000000#32) : EReal) := by
  unfold Cert.Gcn.act256
  rw [maximumf_apply, addf_apply, Cert.Lib.bcastInDim_vecRows_apply, Cert.Lib.bcast_const_apply]

/-- For an input block holding rows 5000·tv … of A and a bias block holding all of b, the body's entry at j is the
    whole-array formula's entry at the array index i of j. -/
theorem block1_at (A : FVec Ideal ⟨2, ![50000, 256]⟩ .f32) (b : FVec Ideal ⟨1, ![256]⟩ .f32)
    (x0 : FVec Ideal S5000x256 .f32) (x1 : FVec Ideal S256 .f32) (tv : Nat) (ht : tv < 10)
    (h0 : ∀ (r : Fin 5000) (q : Fin 256), x0 (ix2 r q) = A (ix2 (rowOf tv ht r) q))
    (h1 : ∀ (q : Fin 256), x1 (ix1 q) = b (ix1 q))
    (j : (⟨2, ![5000, 256]⟩ : Shape).Idx) (i : (⟨2, ![50000, 256]⟩ : Shape).Idx)
    (hi0 : (i 0).val = tv * 5000 + (j 0).val) (hi1 : (i 1).val = (j 1).val) :
    k1_pay1 (F := Ideal) x0 x1 j = Cert.Gcn.act256 (F := Ideal) A b i := by
  obtain ⟨r, q, rfl⟩ : ∃ (r : Fin 5000) (q : Fin 256), j = ix2 r q := ⟨j 0, j 1, eq_ix2 j⟩
  obtain ⟨R, Q, rfl⟩ : ∃ (R : Fin 50000) (Q : Fin 256), i = ix2 R Q := ⟨i 0, i 1, eq_ix2 i⟩
  have hQ : Q = q := Fin.ext hi1
  have hR : R = rowOf tv ht r := Fin.ext hi0
  subst hQ hR
  rw [pay1_at, act256_at, h0, h1]

/-- The printed index maps over the ten grid points: the input and result blocks move down with the point, the bias
    block stays. -/
theorem idx1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

theorem lt1 (t : Fin cfg1.N) : t.val < 10 := lt_of_lt_of_eq t.isLt N_1

/-- The input window's block at point t holds rows 5000·t … of its array. -/
theorem read1_0 (c : Dev nD) (t : Fin cfg1.N) (r : Fin 5000) (q : Fin 256) :
    iblk1 V c 0 t (ix2 r q) = V c main_v45 (ix2 (rowOf t.val (lt1 t) r) q) := by
  obtain ⟨e0, e1, e2, e3, e4⟩ := idx1 t
  show V c main_v45 (((cfg1.win 0).blk t).view.emb (ix2 r q)) = _
  refine congrArg (V c main_v45) ?_
  funext a; apply Fin.ext
  match a with
  | ⟨0, _⟩ => show win1_0.index t (0 : Fin 2) * 5000 + 1 * r.val = t.val * 5000 + r.val; omega
  | ⟨1, _⟩ => show win1_0.index t (1 : Fin 2) * 256 + 1 * q.val = q.val; omega

/-- The bias window's block at every point is the whole bias vector. -/
theorem read1_1 (c : Dev nD) (t : Fin cfg1.N) (q : Fin 256) :
    iblk1 V c 1 t (ix1 q) = V c main_arg3 (ix1 q) := by
  obtain ⟨e0, e1, e2, e3, e4⟩ := idx1 t
  show V c main_arg3 (((cfg1.win 1).blk t).view.emb (ix1 q)) = _
  refine congrArg (V c main_arg3) ?_
  funext a; apply Fin.ext
  match a with
  | ⟨0, _⟩ => show win1_1.index t (0 : Fin 1) * 256 + 1 * q.val = q.val; omega

/-- What point t writes back is block t of the whole-array formula. -/
theorem flushed1 (c : Dev nD) (t : Fin cfg1.N) :
    (dat1 V c).flushed 2 t = ((cfg1.win 2).blk t).view.read (Elt Ideal)
      (Cert.Gcn.act256 (F := Ideal) (V c main_v45) (V c main_arg3)) := by
  show (cfg1.win 2).cut (grid1.coords t) ((dat1 V c).after 2 t) = _
  rw [after1_2]
  unfold out1_2
  rw [View.canon_unit_zero hz2]
  simp only [View.ld_unit_zero (S := S5000x256) hz2, View.ld_unit_zero (S := S256) hz1_1]
  obtain ⟨e0, e1, e2, e3, e4⟩ := idx1 t
  funext j
  refine block1_at (V c main_v45) (V c main_arg3) (iblk1 V c 0 t) (iblk1 V c 1 t) t.val (lt1 t)
    (read1_0 V c t) (read1_1 V c t) j (((cfg1.win 2).blk t).view.emb j) ?_ ?_
  · show win1_2.index t (0 : Fin 2) * 5000 + 1 * (j 0).val = t.val * 5000 + (j 0).val; omega
  · show win1_2.index t (1 : Fin 2) * 256 + 1 * (j 1).val = (j 1).val; omega

/-- An index is in point t's block iff each coordinate is in the block's range. -/
theorem mem_blk1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v46).slice (win1_2.rect t)).set ↔ _
  rw [View.set_slice_whole, Rect.mem_set_unit]
  exact Iff.rfl

/-- Every row lies in the block of the point (row / 5000). -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  let t : Fin cfg1.N := ⟨(i 0).val / 5000, by rw [show cfg1.N = 10 from N_1]; omega⟩
  obtain ⟨e0, e1, e2, e3, e4⟩ := idx1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- The result array after the ten points is the whole-array formula of the two arrays as the grid finds them. -/
theorem final1 (c : Dev nD) :
    (dat1 V c).arrAt 2 cfg1.N = Cert.Gcn.act256 (F := Ideal) (V c main_v45) (V c main_arg3) :=
  (dat1 V c).arrAt_eq_of_cover 2 _ (fun t _ => flushed1 V c t) cover1

end Cert.KernelIdeal.Blocks

end
-- ==== Proof.Bias2.lean ====
/-
  The second layer's bias, block by block.

  Point t takes rows 5000·t … 5000·t + 4999 of the aggregated matrix [50000, 128] and the whole bias vector [128], adds the
  bias to every row, and writes the block back at the same rows of the result. Entry (r, q) of the block is
  a(5000·t + r, q) + b(q): the same entry of the whole-array formula; the ten row blocks tile the result.
-/
import proofs.«141199_j6176162972388_1_alg».proof.Proof.Gen.KernelIdeal.Frame
import proofs.«141199_j6176162972388_1_alg».proof.Proof.Stages
import proofs.«141199_j6176162972388_1_alg».proof.Proof.LibRowReads
import proofs.«141199_j6176162972388_1_alg».proof.Proof.Matmul1
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1_3 : (![0] : Fin 1 → Nat) = fun _ => 0 := funext fun a => by fin_cases a; rfl

/-- The body's value at (r, q). -/
theorem pay3_at (x0 : FVec Ideal S5000x128 .f32) (x1 : FVec Ideal S128 .f32) (r : Fin 5000) (q : Fin 128) :
    k3_pay1 (F := Ideal) x0 x1 (ix2 r q) = (x0 (ix2 r q) + x1 (ix1 q) : EReal) := by
  unfold k3_pay1
  rw [shapeCast_self, addf_apply, Cert.Lib.bcast_vec_apply]

/-- The whole-array formula at (R, q), in the host operations' spelling. -/
theorem act128_at (A : FVec Ideal ⟨2, ![50000, 128]⟩ .f32) (b : FVec Ideal ⟨1, ![128]⟩ .f32) (R : Fin 50000) (q : Fin 128) :
    Cert.Gcn.act128 (F := Ideal) A b (ix2 R q) = (A (ix2 R q) + b (ix1 q) : EReal) := by
  unfold Cert.Gcn.act128
  rw [addf_apply, Cert.Lib.bcastInDim_vecRows_apply]

/-- For an input block holding rows 5000·tv … of A and a bias block holding all of b, the body's entry at j is the
    whole-array formula's entry at the array index i of j. -/
theorem block3_at (A : FVec Ideal ⟨2, ![50000, 128]⟩ .f32) (b : FVec Ideal ⟨1, ![128]⟩ .f32)
    (x0 : FVec Ideal S5000x128 .f32) (x1 : FVec Ideal S128 .f32) (tv : Nat) (ht : tv < 10)
    (h0 : ∀ (r : Fin 5000) (q : Fin 128), x0 (ix2 r q) = A (ix2 (rowOf tv ht r) q))
    (h1 : ∀ (q : Fin 128), x1 (ix1 q) = b (ix1 q))
    (j : (⟨2, ![5000, 128]⟩ : Shape).Idx) (i : (⟨2, ![50000, 128]⟩ : Shape).Idx)
    (hi0 : (i 0).val = tv * 5000 + (j 0).val) (hi1 : (i 1).val = (j 1).val) :
    k3_pay1 (F := Ideal) x0 x1 j = Cert.Gcn.act128 (F := Ideal) A b i := by
  obtain ⟨r, q, rfl⟩ : ∃ (r : Fin 5000) (q : Fin 128), j = ix2 r q := ⟨j 0, j 1, eq_ix2 j⟩
  obtain ⟨R, Q, rfl⟩ : ∃ (R : Fin 50000) (Q : Fin 128), i = ix2 R Q := ⟨i 0, i 1, eq_ix2 i⟩
  have hQ : Q = q := Fin.ext hi1
  have hR : R = rowOf tv ht r := Fin.ext hi0
  subst hQ hR
  rw [pay3_at, act128_at, h0, h1]

/-- The printed index maps over the ten grid points: the input and result blocks move down with the point, the bias
    block stays. -/
theorem idx3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

theorem lt3 (t : Fin cfg3.N) : t.val < 10 := lt_of_lt_of_eq t.isLt N_3

/-- The input window's block at point t holds rows 5000·t … of its array. -/
theorem read3_0 (c : Dev nD) (t : Fin cfg3.N) (r : Fin 5000) (q : Fin 128) :
    iblk3 V c 0 t (ix2 r q) = V c main_v62 (ix2 (rowOf t.val (lt3 t) r) q) := by
  obtain ⟨e0, e1, e2, e3, e4⟩ := idx3 t
  show V c main_v62 (((cfg3.win 0).blk t).view.emb (ix2 r q)) = _
  refine congrArg (V c main_v62) ?_
  funext a; apply Fin.ext
  match a with
  | ⟨0, _⟩ => show win3_0.index t (0 : Fin 2) * 5000 + 1 * r.val = t.val * 5000 + r.val; omega
  | ⟨1, _⟩ => show win3_0.index t (1 : Fin 2) * 128 + 1 * q.val = q.val; omega

/-- The bias window's block at every point is the whole bias vector. -/
theorem read3_1 (c : Dev nD) (t : Fin cfg3.N) (q : Fin 128) :
    iblk3 V c 1 t (ix1 q) = V c main_arg5 (ix1 q) := by
  obtain ⟨e0, e1, e2, e3, e4⟩ := idx3 t
  show V c main_arg5 (((cfg3.win 1).blk t).view.emb (ix1 q)) = _
  refine congrArg (V c main_arg5) ?_
  funext a; apply Fin.ext
  match a with
  | ⟨0, _⟩ => show win3_1.index t (0 : Fin 1) * 128 + 1 * q.val = q.val; omega

/-- What point t writes back is block t of the whole-array formula. -/
theorem flushed3 (c : Dev nD) (t : Fin cfg3.N) :
    (dat3 V c).flushed 2 t = ((cfg3.win 2).blk t).view.read (Elt Ideal)
      (Cert.Gcn.act128 (F := Ideal) (V c main_v62) (V c main_arg5)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S128) hz1_3]
  obtain ⟨e0, e1, e2, e3, e4⟩ := idx3 t
  funext j
  refine block3_at (V c main_v62) (V c main_arg5) (iblk3 V c 0 t) (iblk3 V c 1 t) t.val (lt3 t)
    (read3_0 V c t) (read3_1 V c t) j (((cfg3.win 2).blk t).view.emb j) ?_ ?_
  · show win3_2.index t (0 : Fin 2) * 5000 + 1 * (j 0).val = t.val * 5000 + (j 0).val; omega
  · show win3_2.index t (1 : Fin 2) * 128 + 1 * (j 1).val = (j 1).val; omega

/-- An index is in point t's block iff each coordinate is in the block's range. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Every row lies in the block of the point (row / 5000). -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  let t : Fin cfg3.N := ⟨(i 0).val / 5000, by rw [show cfg3.N = 10 from N_3]; omega⟩
  obtain ⟨e0, e1, e2, e3, e4⟩ := idx3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the ten points is the whole-array formula of the two arrays as the grid finds them. -/
theorem final3 (c : Dev nD) :
    (dat3 V c).arrAt 2 cfg3.N = Cert.Gcn.act128 (F := Ideal) (V c main_v62) (V c main_arg5) :=
  (dat3 V c).arrAt_eq_of_cover 2 _ (fun t _ => flushed3 V c t) cover3

end Cert.KernelIdeal.Blocks

end
-- ==== Proof.Compose.lean ====
/-
  The kernel program's result is the network of its arguments.

  The buffers' contents are followed from the launch memory through the ten segments of the program. The first host
  stretch leaves the slot arrays (sources, targets, weights) of the edge table; no later segment writes them or an
  argument array, so every later segment finds them unchanged. The first grid computation leaves the product of the
  node features with the first weight matrix; the next stretch its aggregation; the second grid computation adds the
  first bias and takes max(·, 0); after a change of float format (the identity over the extended reals) the third grid
  computation multiplies by the second weight matrix; the next stretch aggregates; the last grid computation adds the
  second bias. Each step is the corresponding stage of the specification applied to the previous step's value.
-/
import proofs.«141199_j6176162972388_1_alg».proof.Proof.Gen.KernelIdeal.Frame
import proofs.«141199_j6176162972388_1_alg».proof.Proof.Stages
import proofs.«141199_j6176162972388_1_alg».proof.Proof.Graph
import proofs.«141199_j6176162972388_1_alg».proof.Proof.Stretches
import proofs.«141199_j6176162972388_1_alg».proof.Proof.Matmul1
import proofs.«141199_j6176162972388_1_alg».proof.Proof.Matmul2
import proofs.«141199_j6176162972388_1_alg».proof.Proof.Bias1
import proofs.«141199_j6176162972388_1_alg».proof.Proof.Bias2

set_option maxRecDepth 16384

noncomputable section

namespace Cert.KernelIdeal.Compose

open Cert.KernelIdeal Cert.KernelIdeal.Gen Cert.KernelIdeal.Blocks Cert.KernelIdeal.Stretch
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What no segment writes: the slot arrays and the arguments, boundary after boundary -/

theorem at3_main_v5 : W3 m ρ c (Proc.devRef .tc main_v5) = Cert.Gcn.src (F := Ideal) (m ((c : Thread nD τ).loc main_arg1)) :=
  pre_src (W0 m ρ c)
theorem at4_main_v5 : W4 m ρ c (Proc.devRef .tc main_v5) = Cert.Gcn.src (F := Ideal) (m ((c : Thread nD τ).loc main_arg1)) :=
  (W4_of_ne m ρ c main_v5 (by decide)).trans (at3_main_v5 m ρ c)
theorem at5_main_v5 : W5 m ρ c (Proc.devRef .tc main_v5) = Cert.Gcn.src (F := Ideal) (m ((c : Thread nD τ).loc main_arg1)) :=
  (keep_hostOps1_main_v5 (W4 m ρ c)).trans (at4_main_v5 m ρ c)
theorem at6_main_v5 : W6 m ρ c (Proc.devRef .tc main_v5) = Cert.Gcn.src (F := Ideal) (m ((c : Thread nD τ).loc main_arg1)) :=
  (W6_of_ne m ρ c main_v5 (by decide)).trans (at5_main_v5 m ρ c)
theorem at7_main_v5 : W7 m ρ c (Proc.devRef .tc main_v5) = Cert.Gcn.src (F := Ideal) (m ((c : Thread nD τ).loc main_arg1)) :=
  (keep_hostOps2_main_v5 (W6 m ρ c)).trans (at6_main_v5 m ρ c)
theorem at8_main_v5 : W8 m ρ c (Proc.devRef .tc main_v5) = Cert.Gcn.src (F := Ideal) (m ((c : Thread nD τ).loc main_arg1)) :=
  (W8_of_ne m ρ c main_v5 (by decide)).trans (at7_main_v5 m ρ c)

theorem at3_main_v6 : W3 m ρ c (Proc.devRef .tc main_v6) = Cert.Gcn.dst (F := Ideal) (m ((c : Thread nD τ).loc main_arg1)) :=
  pre_dst (W0 m ρ c)
theorem at4_main_v6 : W4 m ρ c (Proc.devRef .tc main_v6) = Cert.Gcn.dst (F := Ideal) (m ((c : Thread nD τ).loc main_arg1)) :=
  (W4_of_ne m ρ c main_v6 (by decide)).trans (at3_main_v6 m ρ c)
theorem at5_main_v6 : W5 m ρ c (Proc.devRef .tc main_v6) = Cert.Gcn.dst (F := Ideal) (m ((c : Thread nD τ).loc main_arg1)) :=
  (keep_hostOps1_main_v6 (W4 m ρ c)).trans (at4_main_v6 m ρ c)
theorem at6_main_v6 : W6 m ρ c (Proc.devRef .tc main_v6) = Cert.Gcn.dst (F := Ideal) (m ((c : Thread nD τ).loc main_arg1)) :=
  (W6_of_ne m ρ c main_v6 (by decide)).trans (at5_main_v6 m ρ c)
theorem at7_main_v6 : W7 m ρ c (Proc.devRef .tc main_v6) = Cert.Gcn.dst (F := Ideal) (m ((c : Thread nD τ).loc main_arg1)) :=
  (keep_hostOps2_main_v6 (W6 m ρ c)).trans (at6_main_v6 m ρ c)
theorem at8_main_v6 : W8 m ρ c (Proc.devRef .tc main_v6) = Cert.Gcn.dst (F := Ideal) (m ((c : Thread nD τ).loc main_arg1)) :=
  (W8_of_ne m ρ c main_v6 (by decide)).trans (at7_main_v6 m ρ c)

theorem at3_main_v29 : W3 m ρ c (Proc.devRef .tc main_v29) = Cert.Gcn.norm (F := Ideal) (m ((c : Thread nD τ).loc main_arg1)) :=
  pre_norm (W0 m ρ c)
theorem at4_main_v29 : W4 m ρ c (Proc.devRef .tc main_v29) = Cert.Gcn.norm (F := Ideal) (m ((c : Thread nD τ).loc main_arg1)) :=
  (W4_of_ne m ρ c main_v29 (by decide)).trans (at3_main_v29 m ρ c)
theorem at5_main_v29 : W5 m ρ c (Proc.devRef .tc main_v29) = Cert.Gcn.norm (F := Ideal) (m ((c : Thread nD τ).loc main_arg1)) :=
  (keep_hostOps1_main_v29 (W4 m ρ c)).trans (at4_main_v29 m ρ c)
theorem at6_main_v29 : W6 m ρ c (Proc.devRef .tc main_v29) = Cert.Gcn.norm (F := Ideal) (m ((c : Thread nD τ).loc main_arg1)) :=
  (W6_of_ne m ρ c main_v29 (by decide)).trans (at5_main_v29 m ρ c)
theorem at7_main_v29 : W7 m ρ c (Proc.devRef .tc main_v29) = Cert.Gcn.norm (F := Ideal) (m ((c : Thread nD τ).loc main_arg1)) :=
  (keep_hostOps2_main_v29 (W6 m ρ c)).trans (at6_main_v29 m ρ c)
theorem at8_main_v29 : W8 m ρ c (Proc.devRef .tc main_v29) = Cert.Gcn.norm (F := Ideal) (m ((c : Thread nD τ).loc main_arg1)) :=
  (W8_of_ne m ρ c main_v29 (by decide)).trans (at7_main_v29 m ρ c)

theorem at3_main_arg3 : W3 m ρ c (Proc.devRef .tc main_arg3) = (m ((c : Thread nD τ).loc main_arg3)) :=
  pre_keep_main_arg3 (W0 m ρ c)
theorem at4_main_arg3 : W4 m ρ c (Proc.devRef .tc main_arg3) = (m ((c : Thread nD τ).loc main_arg3)) :=
  (W4_of_ne m ρ c main_arg3 (by decide)).trans (at3_main_arg3 m ρ c)
theorem at5_main_arg3 : W5 m ρ c (Proc.devRef .tc main_arg3) = (m ((c : Thread nD τ).loc main_arg3)) :=
  (keep_hostOps1_main_arg3 (W4 m ρ c)).trans (at4_main_arg3 m ρ c)

theorem at3_main_arg4 : W3 m ρ c (Proc.devRef .tc main_arg4) = (m ((c : Thread nD τ).loc main_arg4)) :=
  pre_keep_main_arg4 (W0 m ρ c)
theorem at4_main_arg4 : W4 m ρ c (Proc.devRef .tc main_arg4) = (m ((c : Thread nD τ).loc main_arg4)) :=
  (W4_of_ne m ρ c main_arg4 (by decide)).trans (at3_main_arg4 m ρ c)
theorem at5_main_arg4 : W5 m ρ c (Proc.devRef .tc main_arg4) = (m ((c : Thread nD τ).loc main_arg4)) :=
  (keep_hostOps1_main_arg4 (W4 m ρ c)).trans (at4_main_arg4 m ρ c)
theorem at6_main_arg4 : W6 m ρ c (Proc.devRef .tc main_arg4) = (m ((c : Thread nD τ).loc main_arg4)) :=
  (W6_of_ne m ρ c main_arg4 (by decide)).trans (at5_main_arg4 m ρ c)

theorem at3_main_arg5 : W3 m ρ c (Proc.devRef .tc main_arg5) = (m ((c : Thread nD τ).loc main_arg5)) :=
  pre_keep_main_arg5 (W0 m ρ c)
theorem at4_main_arg5 : W4 m ρ c (Proc.devRef .tc main_arg5) = (m ((c : Thread nD τ).loc main_arg5)) :=
  (W4_of_ne m ρ c main_arg5 (by decide)).trans (at3_main_arg5 m ρ c)
theorem at5_main_arg5 : W5 m ρ c (Proc.devRef .tc main_arg5) = (m ((c : Thread nD τ).loc main_arg5)) :=
  (keep_hostOps1_main_arg5 (W4 m ρ c)).trans (at4_main_arg5 m ρ c)
theorem at6_main_arg5 : W6 m ρ c (Proc.devRef .tc main_arg5) = (m ((c : Thread nD τ).loc main_arg5)) :=
  (W6_of_ne m ρ c main_arg5 (by decide)).trans (at5_main_arg5 m ρ c)
theorem at7_main_arg5 : W7 m ρ c (Proc.devRef .tc main_arg5) = (m ((c : Thread nD τ).loc main_arg5)) :=
  (keep_hostOps2_main_arg5 (W6 m ρ c)).trans (at6_main_arg5 m ρ c)
theorem at8_main_arg5 : W8 m ρ c (Proc.devRef .tc main_arg5) = (m ((c : Thread nD τ).loc main_arg5)) :=
  (W8_of_ne m ρ c main_arg5 (by decide)).trans (at7_main_arg5 m ρ c)
theorem at9_main_arg5 : W9 m ρ c (Proc.devRef .tc main_arg5) = (m ((c : Thread nD τ).loc main_arg5)) :=
  (keep_hostOps3_main_arg5 (W8 m ρ c)).trans (at8_main_arg5 m ρ c)

/-! ## The values computed, boundary after boundary -/

theorem at3_x : W3 m ρ c (Proc.devRef .tc main_v30) = (m ((c : Thread nD τ).loc main_arg0)) := pre_x (W0 m ρ c)
theorem at3_w1 : W3 m ρ c (Proc.devRef .tc main_v31) = (m ((c : Thread nD τ).loc main_arg2)) := pre_w1 (W0 m ρ c)

/-- After the first grid computation: the product X · W1. -/
theorem at4_h : W4 m ρ c (Proc.devRef .tc main_v32) = Cert.Gcn.dot256 (F := Ideal) (m ((c : Thread nD τ).loc main_arg0)) (m ((c : Thread nD τ).loc main_arg2)) := by
  refine (W4_arr m ρ c 2).trans ((final0 (V3 m ρ) c).trans ?_)
  show Cert.Gcn.dot256 (F := Ideal) (W3 m ρ c (Proc.devRef .tc main_v30)) (W3 m ρ c (Proc.devRef .tc main_v31)) = _
  rw [at3_x, at3_w1]

/-- After the next stretch: its aggregation. -/
theorem at5_a : W5 m ρ c (Proc.devRef .tc main_v45) = Cert.Gcn.agg256 (F := Ideal) (Cert.Gcn.dot256 (F := Ideal) (m ((c : Thread nD τ).loc main_arg0)) (m ((c : Thread nD τ).loc main_arg2))) (m ((c : Thread nD τ).loc main_arg1)) := by
  refine (agg_first (W4 m ρ c)).trans ?_
  rw [at4_h, at4_main_v5, at4_main_v6, at4_main_v29]
  rfl

/-- After the second grid computation: bias and max(·, 0). -/
theorem at6_o : W6 m ρ c (Proc.devRef .tc main_v46) = Cert.Gcn.act256 (F := Ideal) (Cert.Gcn.agg256 (F := Ideal) (Cert.Gcn.dot256 (F := Ideal) (m ((c : Thread nD τ).loc main_arg0)) (m ((c : Thread nD τ).loc main_arg2))) (m ((c : Thread nD τ).loc main_arg1))) (m ((c : Thread nD τ).loc main_arg3)) := by
  refine (W6_arr m ρ c 2).trans ((final1 (V5 m ρ) c).trans ?_)
  show Cert.Gcn.act256 (F := Ideal) (W5 m ρ c (Proc.devRef .tc main_v45)) (W5 m ρ c (Proc.devRef .tc main_arg3)) = _
  rw [at5_a, at5_main_arg3]

/-- After the changes of float format: the same two arrays. -/
theorem at7_o : W7 m ρ c (Proc.devRef .tc main_v47) = Cert.Gcn.act256 (F := Ideal) (Cert.Gcn.agg256 (F := Ideal) (Cert.Gcn.dot256 (F := Ideal) (m ((c : Thread nD τ).loc main_arg0)) (m ((c : Thread nD τ).loc main_arg2))) (m ((c : Thread nD τ).loc main_arg1))) (m ((c : Thread nD τ).loc main_arg3)) :=
  (cast_h (W6 m ρ c)).trans (at6_o m ρ c)
theorem at7_w2 : W7 m ρ c (Proc.devRef .tc main_v48) = (m ((c : Thread nD τ).loc main_arg4)) :=
  (cast_w2 (W6 m ρ c)).trans (at6_main_arg4 m ρ c)

/-- After the third grid computation: the product with W2. -/
theorem at8_h : W8 m ρ c (Proc.devRef .tc main_v49) = Cert.Gcn.dot128 (F := Ideal) (Cert.Gcn.act256 (F := Ideal) (Cert.Gcn.agg256 (F := Ideal) (Cert.Gcn.dot256 (F := Ideal) (m ((c : Thread nD τ).loc main_arg0)) (m ((c : Thread nD τ).loc main_arg2))) (m ((c : Thread nD τ).loc main_arg1))) (m ((c : Thread nD τ).loc main_arg3))) (m ((c : Thread nD τ).loc main_arg4)) := by
  refine (W8_arr m ρ c 2).trans ((final2 (V7 m ρ) c).trans ?_)
  show Cert.Gcn.dot128 (F := Ideal) (W7 m ρ c (Proc.devRef .tc main_v47)) (W7 m ρ c (Proc.devRef .tc main_v48)) = _
  rw [at7_o, at7_w2]

/-- After the last stretch: its aggregation. -/
theorem at9_a : W9 m ρ c (Proc.devRef .tc main_v62) = Cert.Gcn.agg128 (F := Ideal) (Cert.Gcn.dot128 (F := Ideal) (Cert.Gcn.act256 (F := Ideal) (Cert.Gcn.agg256 (F := Ideal) (Cert.Gcn.dot256 (F := Ideal) (m ((c : Thread nD τ).loc main_arg0)) (m ((c : Thread nD τ).loc main_arg2))) (m ((c : Thread nD τ).loc main_arg1))) (m ((c : Thread nD τ).loc main_arg3))) (m ((c : Thread nD τ).loc main_arg4))) (m ((c : Thread nD τ).loc main_arg1)) := by
  refine (agg_second (W8 m ρ c)).trans ?_
  rw [at8_h, at8_main_v5, at8_main_v6, at8_main_v29]
  rfl

/-- THE RESULT: the last grid computation adds the second bias; the result buffer ends at the network of the six
    arguments. -/
theorem result : W10 m ρ c (Proc.devRef .tc main_v63)
    = Cert.Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W10_arr m ρ c 2).trans ((final3 (V9 m ρ) c).trans ?_)
  show Cert.Gcn.act128 (F := Ideal) (W9 m ρ c (Proc.devRef .tc main_v62)) (W9 m ρ c (Proc.devRef .tc main_arg5)) = _
  rw [at9_a, at9_main_arg5]
  rfl

end Cert.KernelIdeal.Compose

end
-- ==== Proof.RefIsNet.lean ====
/-
  The reference program computes the network.

  Its run ends with the result at the composition of its host operations applied to the argument arrays; that
  composition is the staged network of the specification, stage for stage: the two layers' index arrays, degrees and
  edge weights are the same terms of the edge table, computed once per layer.
-/
import proofs.«141199_j6176162972388_1_alg».proof.Proof.RefRun
import proofs.«141199_j6176162972388_1_alg».proof.Proof.Stages

noncomputable section

namespace Cert.Gcn

open Cert.ReferenceIdeal Cert.ReferenceIdeal.Gen Idealize.ShloMosaic Idealize.ShloMosaic.TcCoe Idealize.SL.Sem

variable {F : FTy → Type} [FloatOps F]

set_option maxRecDepth 65536 in
/-- The reference's composed result term is the staged network of its arguments. -/
theorem ref_is_net (m : (ℓ : Loc nD τ sig) → Buf (Elt F) ℓ) (c : Dev nD) :
    Cert.ReferenceIdeal.ValueP.res_main_v90 m c
      = net (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v90 net act128 agg128 aggP128 dot128 act256 agg256 aggP256 dot256 norm normP dinv deg wrap src dst
  rfl

end Cert.Gcn

end
-- ==== Proof.lean ====
/-
  A two-layer graph convolution computed by four grid computations among host operations, against a plain host
  program: the proof that both end with the same array over the extended reals.

  Both programs compute, for node features X, an edge table, weights W1, W2 and biases b1, b2,
      A(max(A(X · W1) + b1, 0) · W2) + b2,
  where A gathers each edge slot's source row, scales it by dinv(source) · dinv(target) and adds it into the target row
  (the slots are the table's edges followed by one self-loop per node; dinv is the inverse square root of the number of
  slots aimed at a node, 0 where there is none). The kernel program forms the two matrix products and the two bias steps
  in grid computations over ten row blocks of 5000 nodes, with the products' inputs in a narrower float format; the
  reference forms them with host operations on the whole arrays. Over the extended reals the change of format is the
  identity, a block of a product of row blocks is the row block of the product, a row block of a row-wise bias step
  is the bias step of the row block, and the aggregation steps are the very same host operations in both programs. So
  no algebraic law beyond the definition of a matrix product is used, and the finiteness of the inputs is not needed.
-/
import proofs.«141199_j6176162972388_1_alg».proof.Defs
import proofs.«141199_j6176162972388_1_alg».proof.Proof.Gen.Kernel
import proofs.«141199_j6176162972388_1_alg».proof.Proof.Gen.Kernel.Skeleton
import proofs.«141199_j6176162972388_1_alg».proof.Proof.Gen.Kernel.Launch
import proofs.«141199_j6176162972388_1_alg».proof.Proof.Gen.Kernel.Points
import proofs.«141199_j6176162972388_1_alg».proof.Proof.Gen.Kernel.Frame
import proofs.«141199_j6176162972388_1_alg».proof.Proof.Gen.KernelIdeal
import proofs.«141199_j6176162972388_1_alg».proof.Proof.Gen.KernelIdeal.Skeleton
import proofs.«141199_j6176162972388_1_alg».proof.Proof.Gen.KernelIdeal.Launch
import proofs.«141199_j6176162972388_1_alg».proof.Proof.Gen.KernelIdeal.Points
import proofs.«141199_j6176162972388_1_alg».proof.Proof.Gen.KernelIdeal.Frame
import proofs.«141199_j6176162972388_1_alg».proof.Proof.Gen.ReferenceIdeal
import proofs.«141199_j6176162972388_1_alg».proof.Proof.Gen.Pre_finite_inputs
import proofs.«141199_j6176162972388_1_alg».proof.Proof.KernelRun
import proofs.«141199_j6176162972388_1_alg».proof.Proof.Compose
import proofs.«141199_j6176162972388_1_alg».proof.Proof.RefRun
import proofs.«141199_j6176162972388_1_alg».proof.Proof.RefIsNet
import Idealize.ShloMosaic.Adequacy
import Idealize.ShloMosaic.Init

noncomputable section

namespace Cert.Proof

open Idealize.ShloMosaic Idealize.ShloMosaic.TcCoe Idealize.SL.Sem

/-- The kernel program as printed runs and leaves its arguments: the generated frame. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Nothing of the kernel program was rewritten when it was read over the extended reals. -/
theorem preserves : Cert.preserves_Kernel_KernelIdeal := trivial

/-- From memories agreeing on the six arguments both programs end with the network of those arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Compose.result m ρ c), (h c).2⟩)
    (Cert.KernelIdeal.Named.run (F := Ideal) m ρ), ?_⟩
  refine (θ_run Cert.ReferenceIdeal.defs _ _).mono (fun _ h c => ⟨(h c).1.trans ?_, (h c).2⟩)
    (Cert.ReferenceIdeal.ValueP.run (F := Ideal) m' ρ')
  rw [Cert.Gcn.ref_is_net, (hagree c).1, (hagree c).2.1, (hagree c).2.2.1, (hagree c).2.2.2.1, (hagree c).2.2.2.2.1,
    (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
